-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S2x600000 : Shape := ⟨2, ![2, 600000]⟩
abbrev S100000x512 : Shape := ⟨2, ![100000, 512]⟩
abbrev S512x640 : Shape := ⟨2, ![512, 640]⟩
abbrev S512 : Shape := ⟨1, ![512]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x640 : S_.BroadcastsInDim S512x640 (![] : Fin 0 → Fin S512x640.rank)
  reducesTo_S512x640_S_d0_1 : S512x640.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S600000x128 .f32) (main_arg1 : IVec S2x600000 32) (main_arg2 : FVec F S100000x512 .f32) (main_arg3 : FVec F S512x640 .f32) (main_arg4 : FVec F S512 .f32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x640 .f32 := Host.absf main_arg3
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S600000x128 : Shape := ⟨2, ![600000, 128]⟩
abbrev S2x600000 : Shape := ⟨2, ![2, 600000]⟩
abbrev S100000x512 : Shape := ⟨2, ![100000, 512]⟩
abbrev S512x640 : Shape := ⟨2, ![512, 640]⟩
abbrev S512 : Shape := ⟨1, ![512]⟩
abbrev S1x600000 : Shape := ⟨2, ![1, 600000]⟩
abbrev S600000 : Shape := ⟨1, ![600000]⟩
abbrev S_ : Shape := ⟨0, ![]⟩
abbrev S100000x128 : Shape := ⟨2, ![100000, 128]⟩
abbrev S600000x1 : Shape := ⟨2, ![600000, 1]⟩
abbrev S100000 : Shape := ⟨1, ![100000]⟩
abbrev S100000x1 : Shape := ⟨2, ![100000, 1]⟩
abbrev S512x512 : Shape := ⟨2, ![512, 512]⟩
abbrev S512x128 : Shape := ⟨2, ![512, 128]⟩
abbrev S128x512 : Shape := ⟨2, ![128, 512]⟩
abbrev S1x512 : Shape := ⟨2, ![1, 512]⟩
abbrev S2000x512 : Shape := ⟨2, ![2000, 512]⟩
abbrev S2000x128 : Shape := ⟨2, ![2000, 128]⟩

abbrev nBuf : Space → Nat
  | .hbm => 33
  | .vmem => 9
  | .smem => 0
  | _ => 0

abbrev bufTy : (tb : Table) → Fin (tcTables nBuf tb) → BufTy
  | .hbm, ⟨0, _⟩ => ⟨S600000x128, .f32⟩
  | .hbm, ⟨1, _⟩ => ⟨S2x600000, .i32⟩
  | .hbm, ⟨2, _⟩ => ⟨S100000x512, .f32⟩
  | .hbm, ⟨3, _⟩ => ⟨S512x640, .f32⟩
  | .hbm, ⟨4, _⟩ => ⟨S512, .f32⟩
  | .hbm, ⟨5, _⟩ => ⟨S1x600000, .i32⟩
  | .hbm, ⟨6, _⟩ => ⟨S600000, .i32⟩
  | .hbm, ⟨7, _⟩ => ⟨S_, .f32⟩
  | .hbm, ⟨8, _⟩ => ⟨S100000x128, .f32⟩
  | .hbm, ⟨9, _⟩ => ⟨S600000x1, .i32⟩
  | .hbm, ⟨10, _⟩ => ⟨S100000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S100000, .f32⟩
  | .hbm, ⟨15, _⟩ => ⟨S600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S512x512, .f32⟩
  | .hbm, ⟨24, _⟩ => ⟨S512x128, .f32⟩
  | .hbm, ⟨25, _⟩ => ⟨S512x512, .f32⟩
  | .hbm, ⟨26, _⟩ => ⟨S512x512, .bf16⟩
  | .hbm, ⟨27, _⟩ => ⟨S128x512, .f32⟩
  | .hbm, ⟨28, _⟩ => ⟨S128x512, .bf16⟩
  | .hbm, ⟨29, _⟩ => ⟨S1x512, .f32⟩
  | .hbm, ⟨30, _⟩ => ⟨S100000x512, .bf16⟩
  | .hbm, ⟨31, _⟩ => ⟨S100000x128, .bf16⟩
  | .hbm, ⟨32, _⟩ => ⟨S100000x512, .f32⟩
  | .local _ .vmem, ⟨0, _⟩ => ⟨S2000x512, .bf16⟩
  | .local _ .vmem, ⟨1, _⟩ => ⟨S2000x512, .bf16⟩
  | .local _ .vmem, ⟨2, _⟩ => ⟨S2000x128, .bf16⟩
  | .local _ .vmem, ⟨3, _⟩ => ⟨S2000x128, .bf16⟩
  | .local _ .vmem, ⟨4, _⟩ => ⟨S512x512, .bf16⟩
  | .local _ .vmem, ⟨5, _⟩ => ⟨S128x512, .bf16⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S512x640_S512x512_0_0 : S512x640.Slices ![0, 0] S512x512
  slices_S512x640_S512x128_0_512 : S512x640.Slices ![0, 512] S512x128
  transposes_S512x512_S512x512_1_0 : S512x512.Transposes [1, 0] S512x512
  bitsLt_bf16_f32 : FTy.bits .bf16 < FTy.bits .f32
  transposes_S512x128_S128x512_1_0 : S512x128.Transposes [1, 0] S128x512
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x512_S512x512_S2000x512_1_0_0_1_n_n_wf : DotDims.WF S2000x512 S512x512 S2000x512 [1] [0] [0] [1] [] []
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .bf16 = 32 ∨ (Rect.block (s := S100000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .bf16 = 32 ∨ (Rect.block (s := S100000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S100000x512.size a
  hwx0_5 : ∀ i : grid0.Coords, EltTy.bits .f32 = 32 ∨ (Rect.block (s := S100000x512) S2000x512.size (cc0_transform_5 i) (hinb0_5 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v21) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S600000x128 : Shape := ⟨2, ![600000, 128]⟩
abbrev S2x600000 : Shape := ⟨2, ![2, 600000]⟩
abbrev S100000x512 : Shape := ⟨2, ![100000, 512]⟩
abbrev S512x640 : Shape := ⟨2, ![512, 640]⟩
abbrev S512 : Shape := ⟨1, ![512]⟩
abbrev S1x600000 : Shape := ⟨2, ![1, 600000]⟩
abbrev S600000 : Shape := ⟨1, ![600000]⟩
abbrev S_ : Shape := ⟨0, ![]⟩
abbrev S100000x128 : Shape := ⟨2, ![100000, 128]⟩
abbrev S600000x1 : Shape := ⟨2, ![600000, 1]⟩
abbrev S100000 : Shape := ⟨1, ![100000]⟩
abbrev S100000x1 : Shape := ⟨2, ![100000, 1]⟩
abbrev S100000x640 : Shape := ⟨2, ![100000, 640]⟩
abbrev S640x512 : Shape := ⟨2, ![640, 512]⟩
abbrev S1x512 : Shape := ⟨2, ![1, 512]⟩

abbrev nBuf : Space → Nat
  | .hbm => 37
  | .vmem => 0
  | .smem => 0
  | _ => 0

abbrev bufTy : (tb : Table) → Fin (tcTables nBuf tb) → BufTy
  | .hbm, ⟨0, _⟩ => ⟨S600000x128, .f32⟩
  | .hbm, ⟨1, _⟩ => ⟨S2x600000, .i32⟩
  | .hbm, ⟨2, _⟩ => ⟨S100000x512, .f32⟩
  | .hbm, ⟨3, _⟩ => ⟨S512x640, .f32⟩
  | .hbm, ⟨4, _⟩ => ⟨S512, .f32⟩
  | .hbm, ⟨5, _⟩ => ⟨S1x600000, .i32⟩
  | .hbm, ⟨6, _⟩ => ⟨S600000, .i32⟩
  | .hbm, ⟨7, _⟩ => ⟨S_, .f32⟩
  | .hbm, ⟨8, _⟩ => ⟨S100000x128, .f32⟩
  | .hbm, ⟨9, _⟩ => ⟨S600000x1, .i32⟩
  | .hbm, ⟨10, _⟩ => ⟨S100000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S100000, .f32⟩
  | .hbm, ⟨15, _⟩ => ⟨S600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S100000x640, .f32⟩
  | .hbm, ⟨24, _⟩ => ⟨S640x512, .f32⟩
  | .hbm, ⟨25, _⟩ => ⟨S100000x512, .f32⟩
  | .hbm, ⟨26, _⟩ => ⟨S1x512, .f32⟩
  | .hbm, ⟨27, _⟩ => ⟨S100000x512, .f32⟩
  | .hbm, ⟨28, _⟩ => ⟨S100000x512, .f32⟩
  | .hbm, ⟨29, _⟩ => ⟨S100000x512, .f32⟩
  | .hbm, ⟨30, _⟩ => ⟨S100000x512, .f32⟩
  | .hbm, ⟨31, _⟩ => ⟨S_, .f32⟩
  | .hbm, ⟨32, _⟩ => ⟨S100000x512, .f32⟩
  | .hbm, ⟨33, _⟩ => ⟨S100000x512, .f32⟩
  | .hbm, ⟨34, _⟩ => ⟨S_, .f32⟩
  | .hbm, ⟨35, _⟩ => ⟨S100000x512, .f32⟩
  | .hbm, ⟨36, _⟩ => ⟨S100000x512, .f32⟩
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x512_S100000x128_S100000x640_d1 : Shape.Concatenates [S100000x512, S100000x128] S100000x640 1
  transposes_S512x640_S640x512_1_0 : S512x640.Transposes [1, 0] S640x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x640_S640x512_S100000x512_1_0_0_1_n_n_wf : DotDims.WF S100000x640 S640x512 S100000x512 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x640_S640x512_S100000x512_1_0_0_1_n_n : DotDims S100000x640 S640x512 S100000x512 where
  lhsContracting := [1]
  rhsContracting := [0]
  lhsNonContracting := [0]
  rhsNonContracting := [1]
  lhsBatch := []
  rhsBatch := []
  wf := dot_S100000x640_S640x512_S100000x512_1_0_0_1_n_n_wf

class Facts : Prop extends Facts₀ where

variable [Facts]
-- ==== Proof.LayerSpec.lean ====
/-
  The layer both programs compute, as ONE function of the argument arrays, index by index, on the extended reals.

  A node r has 512 features of its own, node (r, ·), and 128 aggregated features, mean (r, ·): the per-node mean of
  the features of the edges that point at r. The weight matrix W is [512, 640]: row q holds output q's weights,
  columns 0 … 511 for the node's own features and columns 512 … 639 for the aggregated ones. Output (r, q) is

      logistic ( Σ_{k < 512} node (r, k) · W (q, k)  +  Σ_{k < 128} mean (r, k) · W (q, 512 + k)  +  b q ).

  The edge means enter as an array of their own: both programs compute them by the same operations of the same
  arguments, so nothing here looks inside them.

  Two laws join the two programs to this function. A contraction over all 640 columns at once is the sum of the
  contraction over the first 512 and the contraction over the last 128 (`sum_cols`): a finite sum split at a
  position, which holds in every commutative monoid, the extended reals with their infinities included, so no
  finiteness of the inputs is used. And 1 / (1 + exp (−s)), with the extended reals' division and exponential and the
  single-precision pattern of 1.0 for both ones, is the logistic function at every extended real s
  (`logistic_expanded`): that is how the logistic function is defined there.
-/
import Idealize.ShloMosaic.PureOps.Ideal
import Idealize.ShloMosaic.PureOps.Ideal.Laws
import Idealize.ShloMosaic.Lib.ValueIdx

noncomputable section

open scoped BigOperators

namespace Cert.EdgeLayer

open Idealize.ShloMosaic Idealize.ShloMosaic.ValueIdx

/-! ## Columns of the weight matrix -/

/-- Column k of the node's own features, as a column of the [512, 640] weight matrix. -/
abbrev ownCol (k : Fin 512) : Fin 640 := ⟨k.val, by have := k.isLt; omega⟩
/-- Column k of the aggregated features, as a column of the weight matrix: 512 further on. -/
abbrev aggCol (k : Fin 128) : Fin 640 := ⟨512 + k.val, by have := k.isLt; omega⟩

/-- A sum over the 640 columns is the sum over the first 512 plus the sum over the last 128: in any commutative
    monoid, so at infinite terms too. -/
theorem sum_cols {M : Type*} [AddCommMonoid M] (f : Fin 640 → M) :
    ∑ k : Fin 640, f k = ∑ k : Fin 512, f (ownCol k) + ∑ k : Fin 128, f (aggCol k) :=
  Fin.sum_univ_add (a := 512) (b := 128) f

/-! ## The layer -/

/-- What the logistic function is applied to at output (r, q): the two contractions and the bias. -/
def preact (node : (⟨2, ![100000, 512]⟩ : Shape).Idx → EReal) (mean : (⟨2, ![100000, 128]⟩ : Shape).Idx → EReal)
    (W : (⟨2, ![512, 640]⟩ : Shape).Idx → EReal) (b : (⟨1, ![512]⟩ : Shape).Idx → EReal) (r : Fin 100000) (q : Fin 512) : EReal :=
  (∑ k : Fin 512, node (ix2 r k) * W (ix2 q (ownCol k)) + ∑ k : Fin 128, mean (ix2 r k) * W (ix2 q (aggCol k))) + b (ix1 q)

/-- The layer's output array. -/
def layer (node : (⟨2, ![100000, 512]⟩ : Shape).Idx → EReal) (mean : (⟨2, ![100000, 128]⟩ : Shape).Idx → EReal)
    (W : (⟨2, ![512, 640]⟩ : Shape).Idx → EReal) (b : (⟨1, ![512]⟩ : Shape).Idx → EReal) :
    (⟨2, ![100000, 512]⟩ : Shape).Idx → EReal :=
  fun j => Ideal.logistic (preact node mean W b (j 0) (j 1))

theorem layer_apply (node : (⟨2, ![100000, 512]⟩ : Shape).Idx → EReal) (mean : (⟨2, ![100000, 128]⟩ : Shape).Idx → EReal)
    (W : (⟨2, ![512, 640]⟩ : Shape).Idx → EReal) (b : (⟨1, ![512]⟩ : Shape).Idx → EReal) (r : Fin 100000) (q : Fin 512) :
    layer node mean W b (ix2 r q) = Ideal.logistic (preact node mean W b r q) := rfl

/-! ## The logistic function written out -/

/-- The single-precision pattern of 1.0 denotes the extended real 1. -/
theorem one_f32 : Ideal.ofBits .f32 0x3F800000#32 = 1 := by
  simp [Ideal.ofBits, Ideal.ieee, -EReal.coe_mul]; norm_num

/-- 1 / (1 + exp (−s)) with both ones the pattern of 1.0 is the logistic function of s, at every extended real. -/
theorem logistic_expanded (s : EReal) :
    Ideal.div (Ideal.ofBits .f32 0x3F800000#32) (Ideal.ofBits .f32 0x3F800000#32 + Ideal.exp (-s)) = Ideal.logistic s := by
  rw [one_f32]; rfl

end Cert.EdgeLayer

end
-- ==== Proof.RefLayer.lean ====
/-
  The reference's result is the layer (LayerSpec) of its arguments and of its own edge means.

  The reference joins the node's 512 own features and its 128 aggregated features into one row of 640, contracts
  that row with row q of the weight matrix, adds the bias, and applies 1 / (1 + exp (−s)). Read at output (r, q): a
  column below 512 of the joined row is the node's own feature, a column from 512 on is the aggregated feature 512
  columns back (`joined_own`, `joined_agg`); the transposed weight matrix at (k, q) is W (q, k); so the
  contraction over 640 columns splits into the layer's two contractions (`sum_cols`), and what is applied to their
  sum plus the bias is the logistic function (`logistic_expanded`). The edge means stay the one opaque stage
  `val_main_v13` throughout.
-/
import proofs.«114779_j8701603742217_1_alg».proof.Proof.Gen.ReferenceIdeal.Read
import proofs.«114779_j8701603742217_1_alg».proof.Proof.LayerSpec
import Idealize.ShloMosaic.Lib.Pipeline.Value
import Idealize.ShloMosaic.Lib.ValueIdx

noncomputable section

open scoped BigOperators

namespace Cert.ReferenceIdeal.Layer

open Cert.ReferenceIdeal Cert.ReferenceIdeal.Gen Cert.ReferenceIdeal.Read
open Idealize.ShloMosaic Idealize.ShloMosaic.ValueIdx Cert.EdgeLayer

variable (x0 : (⟨S600000x128, .f32⟩ : BufTy).Contents (Elt Ideal)) (x1 : (⟨S2x600000, .i32⟩ : BufTy).Contents (Elt Ideal))
  (x2 : (⟨S100000x512, .f32⟩ : BufTy).Contents (Elt Ideal)) (x3 : (⟨S512x640, .f32⟩ : BufTy).Contents (Elt Ideal))
  (x4 : (⟨S512, .f32⟩ : BufTy).Contents (Elt Ideal))

/-! ## The joined row -/

/-- A column below 512 of the joined row is the node's own feature. -/
theorem joined_own (r : Fin 100000) (k : Fin 512) :
    val_main_v14 (F := Ideal) x0 x1 x2 (ix2 r (ownCol k)) = x2 (ix2 r k) := by
  unfold val_main_v14
  exact concatenate_pair_apply_left (1 : Fin 2) x2 (val_main_v13 (F := Ideal) x0 x1)
    concatenates_S100000x512_S100000x128_S100000x640_d1 (ix2 r (ownCol k)) rfl (ix2 r k)
    (fun b => by match b with | ⟨0, _⟩ => rfl | ⟨1, _⟩ => rfl)

/-- A column from 512 on is the aggregated feature 512 columns back. -/
theorem joined_agg (r : Fin 100000) (k : Fin 128) :
    val_main_v14 (F := Ideal) x0 x1 x2 (ix2 r (aggCol k)) = val_main_v13 (F := Ideal) x0 x1 (ix2 r k) := by
  unfold val_main_v14
  exact concatenate_pair_apply_right (1 : Fin 2) x2 (val_main_v13 (F := Ideal) x0 x1)
    concatenates_S100000x512_S100000x128_S100000x640_d1 (ix2 r (aggCol k)) rfl rfl (ix2 r k)
    (fun b hb => by match b with | ⟨0, _⟩ => rfl | ⟨1, _⟩ => exact absurd rfl hb)
    (by show k.val + 512 = 512 + k.val; omega)

/-! ## The contraction's operand indices at output (r, q) -/

theorem lhs_at (r : Fin 100000) (q : Fin 512) (k : Fin 640) : lidx_main_v16 (ix2 r q) k = ix2 r k :=
  funext fun a => by match a with | ⟨0, _⟩ => rfl | ⟨1, _⟩ => rfl

theorem rhs_at (r : Fin 100000) (q : Fin 512) (k : Fin 640) : idx_main_v15 (ridx_main_v16 (ix2 r q) k) = ix2 q k :=
  funext fun a => by match a with | ⟨0, _⟩ => rfl | ⟨1, _⟩ => rfl

theorem bias_at (r : Fin 100000) (q : Fin 512) : idx_main_v17 (idx_main_v18 (ix2 r q)) = ix1 q :=
  funext fun a => by match a with | ⟨0, _⟩ => rfl

/-! ## The result -/

/-- The reference's result array is the layer of its arguments and its edge means. -/
theorem result_eq :
    (val_main_v25 (F := Ideal) x0 x1 x2 x3 x4 : S100000x512.Idx → EReal)
      = layer x2 (val_main_v13 (F := Ideal) x0 x1) x3 x4 := by
  funext j
  obtain ⟨r, q, rfl⟩ : ∃ (r : Fin 100000) (q : Fin 512), j = ix2 r q := ⟨j 0, j 1, eq_ix2 j⟩
  rw [layer_apply, val_main_v25_apply, val_main_v24_apply, val_main_cst_4_apply, val_main_v23_apply, val_main_v22_apply,
    val_main_cst_3_apply, val_main_v21_apply, val_main_v20_apply, val_main_v19_apply, val_main_v16_apply,
    val_main_v18_apply, val_main_v17_apply, bias_at, sum_cols]
  simp only [lhs_at, val_main_v15_apply, rhs_at, joined_own, joined_agg]
  exact logistic_expanded _

end Cert.ReferenceIdeal.Layer

end
-- ==== Proof.BodyValue.lean ====
/-
  What the kernel body stores at one place of its output block, on the extended reals.

  At a grid point the body holds a block of 2000 nodes: their own features x (2000 × 512), their aggregated features
  e (2000 × 128), the two transposed weight pieces u (512 × 512) and v (128 × 512), and the bias as one row b
  (1 × 512). It multiplies x by u and e by v, each into a zero accumulator, adds the two products, adds the bias row
  to every row, and applies the logistic function. With exact arithmetic a matrix product into a zero accumulator,
  read at (p, q), is the plain sum over the contracted axis of the products of row p of the left factor and column q
  of the right one (`own_product`, `agg_product`), and the bias row broadcast down the rows, read at (p, q), is
  b (0, q) (`bias_row`). So the stored value at (p, q) is

      logistic ( Σ_{k < 512} x (p, k) · u (k, q)  +  Σ_{k < 128} e (p, k) · v (k, q)  +  b (0, q) )     (`stored_at`).
-/
import proofs.«114779_j8701603742217_1_alg».proof.Proof.Gen.KernelIdeal.Skeleton
import proofs.«114779_j8701603742217_1_alg».proof.Proof.LayerSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeLayer

/-! ## The two matrix products at (p, q) -/

/-- The left factor's row coordinate in the first product is the output's row. -/
theorem own_lhs_row (i : S2000x512.Idx) (κ : dot_S2000x512_S512x512_S2000x512_1_0_0_1_n_n.contr.Idx) :
    (dot_S2000x512_S512x512_S2000x512_1_0_0_1_n_n.lhsIdx i κ 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl

/-- The right factor's column coordinate in the first product is the output's column. -/
theorem own_rhs_col (i : S2000x512.Idx) (κ : dot_S2000x512_S512x512_S2000x512_1_0_0_1_n_n.contr.Idx) :
    (dot_S2000x512_S512x512_S2000x512_1_0_0_1_n_n.rhsIdx i κ 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The product of the own-feature block and its weight piece, into zero, at (p, q): row p against column q. -/
theorem own_product (x : FVec Ideal S2000x512 .bf16) (u : FVec Ideal S512x512 .bf16) (p : Fin 2000) (q : Fin 512) :
    matmul dot_S2000x512_S512x512_S2000x512_1_0_0_1_n_n none x u (constant S2000x512 .f32 0x00000000#32) (ix2 p q)
      = ∑ k : Fin 512, x (ix2 p k) * u (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k :=
    funext fun a => Fin.ext (by
      match a with
      | ⟨0, _⟩ => exact own_lhs_row _ _
      | ⟨1, _⟩ => exact (dot_S2000x512_S512x512_S2000x512_1_0_0_1_n_n.lhsIdx_val_of_single rfl _ _).trans hk)
  have er : dot_S2000x512_S512x512_S2000x512_1_0_0_1_n_n.rhsIdx (ix2 p q) ((contrEquiv1 dot_S2000x512_S512x512_S2000x512_1_0_0_1_n_n 512 rfl rfl).symm k) = ix2 k q :=
    funext fun a => Fin.ext (by
      match a with
      | ⟨0, _⟩ => exact (dot_S2000x512_S512x512_S2000x512_1_0_0_1_n_n.rhsIdx_val_of_single rfl _ _).trans hk
      | ⟨1, _⟩ => exact own_rhs_col _ _)
  rw [el, er]

/-- The left factor's row coordinate in the second product is the output's row. -/
theorem agg_lhs_row (i : S2000x512.Idx) (κ : dot_S2000x128_S128x512_S2000x512_1_0_0_1_n_n.contr.Idx) :
    (dot_S2000x128_S128x512_S2000x512_1_0_0_1_n_n.lhsIdx i κ 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl

/-- The right factor's column coordinate in the second product is the output's column. -/
theorem agg_rhs_col (i : S2000x512.Idx) (κ : dot_S2000x128_S128x512_S2000x512_1_0_0_1_n_n.contr.Idx) :
    (dot_S2000x128_S128x512_S2000x512_1_0_0_1_n_n.rhsIdx i κ 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- The product of the aggregated-feature block and its weight piece, into zero, at (p, q). -/
theorem agg_product (e : FVec Ideal S2000x128 .bf16) (v : FVec Ideal S128x512 .bf16) (p : Fin 2000) (q : Fin 512) :
    matmul dot_S2000x128_S128x512_S2000x512_1_0_0_1_n_n none e v (constant S2000x512 .f32 0x00000000#32) (ix2 p q)
      = ∑ k : Fin 128, e (ix2 p k) * v (ix2 k q) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k :=
    funext fun a => Fin.ext (by
      match a with
      | ⟨0, _⟩ => exact agg_lhs_row _ _
      | ⟨1, _⟩ => exact (dot_S2000x128_S128x512_S2000x512_1_0_0_1_n_n.lhsIdx_val_of_single rfl _ _).trans hk)
  have er : dot_S2000x128_S128x512_S2000x512_1_0_0_1_n_n.rhsIdx (ix2 p q) ((contrEquiv1 dot_S2000x128_S128x512_S2000x512_1_0_0_1_n_n 128 rfl rfl).symm k) = ix2 k q :=
    funext fun a => Fin.ext (by
      match a with
      | ⟨0, _⟩ => exact (dot_S2000x128_S128x512_S2000x512_1_0_0_1_n_n.rhsIdx_val_of_single rfl _ _).trans hk
      | ⟨1, _⟩ => exact agg_rhs_col _ _)
  rw [el, er]

/-! ## The bias row -/

/-- The one bias row broadcast down the 2000 rows, at (p, q), is the row's entry q. -/
theorem bias_row (b : FVec Ideal S1x512 .f32) (p : Fin 2000) (q : Fin 512) :
    broadcastTo S2000x512 b broadcasts_S1x512_S2000x512 (ix2 p q) = b (ix2 (0 : Fin 1) q) :=
  broadcastTo_apply b broadcasts_S1x512_S2000x512 (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-! ## The stored value -/

/-- The body's stored block at (p, q). -/
theorem stored_at (x : Vec Ideal S2000x512 .bf16) (u : Vec Ideal S512x512 .bf16) (e : Vec Ideal S2000x128 .bf16)
    (v : Vec Ideal S128x512 .bf16) (b : Vec Ideal S1x512 .f32) (p : Fin 2000) (q : Fin 512) :
    (k0_pay1 x u e v b : S2000x512.Idx → EReal) (ix2 p q)
      = Ideal.logistic ((∑ k : Fin 512, (x (ix2 p k) : EReal) * u (ix2 k q) + ∑ k : Fin 128, (e (ix2 p k) : EReal) * v (ix2 k q))
          + b (ix2 (0 : Fin 1) q)) := by
  unfold k0_pay1
  simp only [shapeCast_self]
  show Ideal.logistic (((matmul (F := Ideal) dot_S2000x512_S512x512_S2000x512_1_0_0_1_n_n none x u (constant (F := Ideal) S2000x512 .f32 0x00000000#32) (ix2 p q) : EReal)
      + (matmul (F := Ideal) dot_S2000x128_S128x512_S2000x512_1_0_0_1_n_n none e v (constant (F := Ideal) S2000x512 .f32 0x00000000#32) (ix2 p q) : EReal))
      + (broadcastTo S2000x512 b broadcasts_S1x512_S2000x512 (ix2 p q) : EReal)) = _
  rw [own_product, agg_product, bias_row]

/-- The stored value at (p, q) is the layer at (R, q), whenever row p of the two feature blocks is row R of the
    whole arrays, the two weight pieces are the transposed column ranges of W, and the bias row is b. -/
theorem stored_is_layer (x : Vec Ideal S2000x512 .bf16) (u : Vec Ideal S512x512 .bf16) (e : Vec Ideal S2000x128 .bf16)
    (v : Vec Ideal S128x512 .bf16) (b : Vec Ideal S1x512 .f32)
    (node : (⟨2, ![100000, 512]⟩ : Shape).Idx → EReal) (mean : (⟨2, ![100000, 128]⟩ : Shape).Idx → EReal)
    (W : (⟨2, ![512, 640]⟩ : Shape).Idx → EReal) (bias : (⟨1, ![512]⟩ : Shape).Idx → EReal)
    (p : Fin 2000) (q : Fin 512) (R : Fin 100000)
    (hx : ∀ k : Fin 512, (x (ix2 p k) : EReal) = node (ix2 R k)) (he : ∀ k : Fin 128, (e (ix2 p k) : EReal) = mean (ix2 R k))
    (hu : ∀ k : Fin 512, (u (ix2 k q) : EReal) = W (ix2 q (ownCol k))) (hv : ∀ k : Fin 128, (v (ix2 k q) : EReal) = W (ix2 q (aggCol k)))
    (hb : (b (ix2 (0 : Fin 1) q) : EReal) = bias (ix1 q)) :
    (k0_pay1 x u e v b : S2000x512.Idx → EReal) (ix2 p q) = layer node mean W bias (ix2 R q) := by
  rw [stored_at, layer_apply]
  unfold preact
  simp only [hx, he, hu, hv, hb]

end Cert.KernelIdeal.Body

end
-- ==== Proof.StagedArrays.lean ====
/-
  What the kernel's five input arrays hold when the grid starts, as functions of the program's arguments.

  Before the grid the program prepares five arrays. With exact arithmetic a change of float format is the identity,
  so: the node features are the argument itself (`staged_node`); the edge means are the per-node sums of the edge
  features divided by the larger of the per-node edge count and one, exactly the operations of `edgeMeans`
  (`staged_means`), never opened here; the first weight piece at (k, q) is W (q, k) for the 512 own-feature columns
  (`staged_own_weights`) and the second at (k, q) is W (q, 512 + k) for the 128 aggregated-feature columns
  (`staged_agg_weights`): a slice of columns, then a transposition; the bias row at (0, q) is b q: a vector re-laid
  as one row (`staged_bias`).
-/
import proofs.«114779_j8701603742217_1_alg».proof.Proof.Gen.KernelIdeal.Frame
import proofs.«114779_j8701603742217_1_alg».proof.Proof.LayerSpec
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.EdgeLayer

/-- The edge means, by the program's own operations of the edge features x0 and the edge endpoints x1: scatter-add
    the edge features into their target nodes, scatter-add ones likewise for the counts, and divide the sums by the
    larger of the count and one. -/
def edgeMeans (x0 : (⟨S600000x128, .f32⟩ : BufTy).Contents (Elt Ideal)) (x1 : (⟨S2x600000, .i32⟩ : BufTy).Contents (Elt Ideal)) :
    (⟨S100000x128, .f32⟩ : BufTy).Contents (Elt Ideal) :=
  Host.divf (F := Ideal) (Host.scatterAdd (F := Ideal) scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast _ (extractStridedSlice S1x600000 ![0, 0] x1 slices_S2x600000_S1x600000_0_0) shapeCasts_S1x600000_S600000)) x0) (broadcastInDim S100000x128 ![0, 1] bcast_S100000x1_S100000x128_0_1 (broadcastInDim S100000x1 ![0] bcast_S100000_S100000x1_0 (maximumf (Host.scatterAdd (F := Ideal) scatter_S100000_S600000x1_S600000_n_0_0_1 (broadcastInDim S100000 ![] bcast_S_S100000 (constant (F := Ideal) S_ .f32 0x00000000#32)) (broadcastInDim S600000x1 ![0] bcast_S600000_S600000x1_0 (shapeCast _ (extractStridedSlice S1x600000 ![0, 0] x1 slices_S2x600000_S1x600000_0_0) shapeCasts_S1x600000_S600000)) (broadcastInDim S600000 ![] bcast_S_S600000 (constant (F := Ideal) S_ .f32 0x3F800000#32))) (broadcastInDim S100000 ![] bcast_S_S100000 (constant (F := Ideal) S_ .f32 0x3F800000#32)))))

variable (m : (ℓ : Loc nD τ sig) → Buf (Elt Ideal) ℓ)

/-! ## The arrays as terms of the arguments -/

theorem staged_node (c : Dev nD) :
    (V m c main_v21 : S100000x512.Idx → EReal) = m ((c : Thread nD τ).loc main_arg2) := by
  dsimp only [V, hostOps0]; after_results; rfl

theorem staged_means (c : Dev nD) :
    (V m c main_v22 : S100000x128.Idx → EReal)
      = edgeMeans (m ((c : Thread nD τ).loc main_arg0)) (m ((c : Thread nD τ).loc main_arg1)) := by
  dsimp only [V, hostOps0]; after_results; rfl

theorem staged_own_term (c : Dev nD) :
    (V m c main_v17 : S512x512.Idx → EReal)
      = transpose S512x512 [1, 0] (extractStridedSlice S512x512 ![0, 0] (m ((c : Thread nD τ).loc main_arg3)) slices_S512x640_S512x512_0_0) transposes_S512x512_S512x512_1_0 := by
  dsimp only [V, hostOps0]; after_results; rfl

theorem staged_agg_term (c : Dev nD) :
    (V m c main_v19 : S128x512.Idx → EReal)
      = transpose S128x512 [1, 0] (extractStridedSlice S512x128 ![0, 512] (m ((c : Thread nD τ).loc main_arg3)) slices_S512x640_S512x128_0_512) transposes_S512x128_S128x512_1_0 := by
  dsimp only [V, hostOps0]; after_results; rfl

theorem staged_bias_term (c : Dev nD) :
    (V m c main_v20 : S1x512.Idx → EReal) = shapeCast _ (m ((c : Thread nD τ).loc main_arg4)) shapeCasts_S512_S1x512 := by
  dsimp only [V, hostOps0]; after_results; rfl

/-! ## The weight pieces and the bias row at an index -/

/-- Columns 0 … 511 of W, transposed: at (k, q), W (q, k). -/
theorem own_weights_at (W : S512x640.Idx → EReal) (k q : Fin 512) :
    transpose S512x512 [1, 0] (extractStridedSlice S512x512 ![0, 0] W slices_S512x640_S512x512_0_0) transposes_S512x512_S512x512_1_0 (ix2 k q)
      = W (ix2 q (ownCol k)) := by
  rw [transpose_apply [1, 0] _ transposes_S512x512_S512x512_1_0 (ix2 k q) (ix2 q k) (fun b => by
    match b with | ⟨0, _⟩ => rfl | ⟨1, _⟩ => rfl)]
  exact extractStridedSlice_apply ![0, 0] W slices_S512x640_S512x512_0_0 (ix2 q k) (ix2 q (ownCol k)) (fun a => by
    match a with
    | ⟨0, _⟩ => show q.val = 0 + q.val; omega
    | ⟨1, _⟩ => show k.val = 0 + k.val; omega)

/-- Columns 512 … 639 of W, transposed: at (k, q), W (q, 512 + k). -/
theorem agg_weights_at (W : S512x640.Idx → EReal) (k : Fin 128) (q : Fin 512) :
    transpose S128x512 [1, 0] (extractStridedSlice S512x128 ![0, 512] W slices_S512x640_S512x128_0_512) transposes_S512x128_S128x512_1_0 (ix2 k q)
      = W (ix2 q (aggCol k)) := by
  rw [transpose_apply [1, 0] _ transposes_S512x128_S128x512_1_0 (ix2 k q) (ix2 q k) (fun b => by
    match b with | ⟨0, _⟩ => rfl | ⟨1, _⟩ => rfl)]
  exact extractStridedSlice_apply ![0, 512] W slices_S512x640_S512x128_0_512 (ix2 q k) (ix2 q (aggCol k)) (fun a => by
    match a with
    | ⟨0, _⟩ => show q.val = 0 + q.val; omega
    | ⟨1, _⟩ => show 512 + k.val = 512 + k.val; rfl)

/-- The bias vector as one row: at (0, q), b q. -/
theorem bias_at (b : S512.Idx → EReal) (q : Fin 512) :
    shapeCast S1x512 b shapeCasts_S512_S1x512 (ix2 (0 : Fin 1) q) = b (ix1 q) :=
  shapeCast_apply b shapeCasts_S512_S1x512 (ix2 (0 : Fin 1) q) (ix1 q) (by
    rewrite [Shape.rowMajor_val_two, Shape.rowMajor_val_one]
    show q.val = 0 * 512 + q.val; omega)

/-! ## The staged arrays at an index -/

theorem staged_own_weights (c : Dev nD) (k q : Fin 512) :
    (V m c main_v17 : S512x512.Idx → EReal) (ix2 k q) = (m ((c : Thread nD τ).loc main_arg3) : S512x640.Idx → EReal) (ix2 q (ownCol k)) := by
  rw [staged_own_term]; exact own_weights_at _ k q

theorem staged_agg_weights (c : Dev nD) (k : Fin 128) (q : Fin 512) :
    (V m c main_v19 : S128x512.Idx → EReal) (ix2 k q) = (m ((c : Thread nD τ).loc main_arg3) : S512x640.Idx → EReal) (ix2 q (aggCol k)) := by
  rw [staged_agg_term]; exact agg_weights_at _ k q

theorem staged_bias (c : Dev nD) (q : Fin 512) :
    (V m c main_v20 : S1x512.Idx → EReal) (ix2 (0 : Fin 1) q) = (m ((c : Thread nD τ).loc main_arg4) : S512.Idx → EReal) (ix1 q) := by
  rw [staged_bias_term]; exact bias_at _ q

end Cert.KernelIdeal.Staged

end
-- ==== Proof.FinalValue.lean ====
/-
  The kernel's result array is the layer (LayerSpec) of the program's arguments.

  The grid has 50 points. Point t works on nodes 2000·t … 2000·t + 1999: its own-feature block and its
  aggregated-feature block are those rows of the two staged arrays, its output block those rows of the result; the
  two weight pieces and the bias row are the same whole arrays at every point (`block_indices`, decided over the
  grid). So row p of a feature block at point t is row 2000·t + p of the whole array (`node_block`,
  `means_block`), and with what the staged arrays hold (StagedArrays) and what the body stores at one place
  (BodyValue) the block that point t writes back is rows 2000·t … 2000·t + 1999 of the layer (`written_block`).
  Every row r lies in the block of point r / 2000 (`covered`), every point writes its block back, so the whole
  result array ends as the layer (`result_array`), and the run with that post is `run`.
-/
import proofs.«114779_j8701603742217_1_alg».proof.Proof.Gen.KernelIdeal.Value
import proofs.«114779_j8701603742217_1_alg».proof.Proof.BodyValue
import proofs.«114779_j8701603742217_1_alg».proof.Proof.StagedArrays
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value
open Idealize.ShloMosaic.ValueIdx Cert.EdgeLayer

variable (m : (ℓ : Loc nD τ sig) → Buf (Elt Ideal) ℓ) (ρ : Dev nD → PrngReg)

theorem origin : (![0, 0] : Fin 2 → Nat) = fun _ => 0 := funext fun a => by fin_cases a <;> rfl

/-- The layer of the program's arguments on core c: the node features, the edge means of the edge features and
    endpoints, the weights and the bias. -/
abbrev target (c : Dev nD) : S100000x512.Idx → EReal :=
  layer (m ((c : Thread nD τ).loc main_arg2))
    (Staged.edgeMeans (m ((c : Thread nD τ).loc main_arg0)) (m ((c : Thread nD τ).loc main_arg1)))
    (m ((c : Thread nD τ).loc main_arg3)) (m ((c : Thread nD τ).loc main_arg4))

/-! ## Which block each window is on at point t -/

/-- The two feature windows and the output window are on block row t; the weight pieces and the bias row do not
    move. Decided over the 50 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at point t -/

/-- Row p of the own-feature block at point t is row 2000·t + p of the node features. -/
theorem node_block (c : Dev nD) (t : Fin cfg0.N) (p : Fin 2000) (k : Fin 512) (R : Fin 100000) (hR : R.val = 2000 * t.val + p.val) :
    (iblk m c 0 t : S2000x512.Idx → EReal) (ix2 p k) = (m ((c : Thread nD τ).loc main_arg2) : S100000x512.Idx → EReal) (ix2 R k) := by
  obtain ⟨e0, e1, -⟩ := block_indices t
  unfold iblk
  rw [View.read_apply]
  show (V m c main_v21 : S100000x512.Idx → EReal) _ = _
  rw [Staged.staged_node]
  refine congrArg _ (funext fun a => Fin.ext ?_)
  match a with
  | ⟨0, _⟩ => show win0_0.index t (0 : Fin 2) * 2000 + 1 * p.val = R.val; rw [e0, hR]; omega
  | ⟨1, _⟩ => show win0_0.index t (1 : Fin 2) * 512 + 1 * k.val = k.val; rw [e1]; omega

/-- Row p of the aggregated-feature block at point t is row 2000·t + p of the edge means. -/
theorem means_block (c : Dev nD) (t : Fin cfg0.N) (p : Fin 2000) (k : Fin 128) (R : Fin 100000) (hR : R.val = 2000 * t.val + p.val) :
    (iblk m c 1 t : S2000x128.Idx → EReal) (ix2 p k)
      = (Staged.edgeMeans (m ((c : Thread nD τ).loc main_arg0)) (m ((c : Thread nD τ).loc main_arg1)) : S100000x128.Idx → EReal) (ix2 R k) := by
  obtain ⟨-, -, e0, e1, -⟩ := block_indices t
  unfold iblk
  rw [View.read_apply]
  show (V m c main_v22 : S100000x128.Idx → EReal) _ = _
  rw [Staged.staged_means]
  refine congrArg _ (funext fun a => Fin.ext ?_)
  match a with
  | ⟨0, _⟩ => show win0_1.index t (0 : Fin 2) * 2000 + 1 * p.val = R.val; rw [e0, hR]; omega
  | ⟨1, _⟩ => show win0_1.index t (1 : Fin 2) * 128 + 1 * k.val = k.val; rw [e1]; omega

/-- The first weight piece's block is the whole piece: at (k, q), W (q, k). -/
theorem own_weights_block (c : Dev nD) (t : Fin cfg0.N) (k q : Fin 512) :
    (iblk m c 2 t : S512x512.Idx → EReal) (ix2 k q) = (m ((c : Thread nD τ).loc main_arg3) : S512x640.Idx → EReal) (ix2 q (ownCol k)) := by
  obtain ⟨-, -, -, -, e0, e1, -⟩ := block_indices t
  unfold iblk
  rw [View.read_apply]
  show (V m c main_v17 : S512x512.Idx → EReal) _ = _
  rw [← Staged.staged_own_weights m c k q]
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 512 + 1 * q.val = q.val; rw [e1]; omega

/-- The second weight piece's block is the whole piece: at (k, q), W (q, 512 + k). -/
theorem agg_weights_block (c : Dev nD) (t : Fin cfg0.N) (k : Fin 128) (q : Fin 512) :
    (iblk m c 3 t : S128x512.Idx → EReal) (ix2 k q) = (m ((c : Thread nD τ).loc main_arg3) : S512x640.Idx → EReal) (ix2 q (aggCol k)) := by
  obtain ⟨-, -, -, -, -, -, e0, e1, -⟩ := block_indices t
  unfold iblk
  rw [View.read_apply]
  show (V m c main_v19 : S128x512.Idx → EReal) _ = _
  rw [← Staged.staged_agg_weights m c k q]
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 512 + 1 * q.val = q.val; rw [e1]; omega

/-- The bias row's block is the whole row: at (0, q), b q. -/
theorem bias_block (c : Dev nD) (t : Fin cfg0.N) (q : Fin 512) :
    (iblk m c 4 t : S1x512.Idx → EReal) (ix2 (0 : Fin 1) q) = (m ((c : Thread nD τ).loc main_arg4) : S512.Idx → EReal) (ix1 q) := by
  obtain ⟨-, -, -, -, -, -, -, -, e0, e1, -⟩ := block_indices t
  unfold iblk
  rw [View.read_apply]
  show (V m c main_v20 : S1x512.Idx → EReal) _ = _
  rw [← Staged.staged_bias m c q]
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * q.val = q.val; rw [e1]; omega

/-! ## What point t writes back -/

/-- Point t writes back rows 2000·t … 2000·t + 1999 of the layer. -/
theorem written_block (c : Dev nD) (t : Fin cfg0.N) :
    (dats m 0 c).flushed 5 t = ((cfg0.win 5).blk t).view.read (Elt Ideal) (target m c) := by
  rw [Value.flushed5]
  unfold out0_5
  rw [View.canon_unit_zero origin]
  simp only [View.ld_unit_zero (S := S2000x512) origin, View.ld_unit_zero (S := S512x512) origin,
    View.ld_unit_zero (S := S2000x128) origin, View.ld_unit_zero (S := S128x512) origin, View.ld_unit_zero (S := S1x512) origin]
  funext y
  obtain ⟨p, q, rfl⟩ : ∃ (p : Fin 2000) (q : Fin 512), y = ix2 p q := ⟨y 0, y 1, eq_ix2 y⟩
  have hN : cfg0.N = 50 := N_0
  have hR : 2000 * t.val + p.val < 100000 := by have := t.isLt; have := p.isLt; omega
  obtain ⟨-, -, -, -, -, -, -, -, -, -, e0, e1⟩ := block_indices t
  have hplace : ((cfg0.win 5).blk t).view.emb (ix2 p q) = ix2 (⟨2000 * t.val + p.val, hR⟩ : Fin 100000) q :=
    funext fun a => Fin.ext (by
      match a with
      | ⟨0, _⟩ => show win0_5.index t (0 : Fin 2) * 2000 + 1 * p.val = 2000 * t.val + p.val; rw [e0]; omega
      | ⟨1, _⟩ => show win0_5.index t (1 : Fin 2) * 512 + 1 * q.val = q.val; rw [e1]; omega)
  show (k0_pay1 (iblk m c 0 t) (iblk m c 2 t) (iblk m c 1 t) (iblk m c 3 t) (iblk m c 4 t) : S2000x512.Idx → EReal) (ix2 p q)
      = target m c (((cfg0.win 5).blk t).view.emb (ix2 p q))
  rw [hplace]
  exact Body.stored_is_layer (iblk m c 0 t) (iblk m c 2 t) (iblk m c 1 t) (iblk m c 3 t) (iblk m c 4 t)
    (m ((c : Thread nD τ).loc main_arg2))
    (Staged.edgeMeans (m ((c : Thread nD τ).loc main_arg0)) (m ((c : Thread nD τ).loc main_arg1)))
    (m ((c : Thread nD τ).loc main_arg3)) (m ((c : Thread nD τ).loc main_arg4))
    p q ⟨2000 * t.val + p.val, hR⟩
    (fun k => node_block m c t p k ⟨2000 * t.val + p.val, hR⟩ rfl)
    (fun k => means_block m c t p k ⟨2000 * t.val + p.val, hR⟩ rfl)
    (fun k => own_weights_block m c t k q)
    (fun k => agg_weights_block m c t k q)
    (bias_block m c t q)

/-! ## Every row is written -/

/-- An index of the result array is in point t's block iff each coordinate is in the block's range on its axis. -/
theorem mem_block (t : Fin cfg0.N) (i : S100000x512.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v23).slice (win0_5.rect t)).set ↔ _
  rw [View.set_slice_whole, Rect.mem_set_unit]
  exact Iff.rfl

/-- Row r is in the block of point r / 2000, which writes back. -/
theorem covered (i : S100000x512.Idx) :
    ∃ t : Fin cfg0.N, (cfg0.win 5).flush t = true ∧ i ∈ ((cfg0.win 5).blk t).view.set := by
  have h0 : (i 0).val < 100000 := (i 0).isLt
  have h1 : (i 1).val < 512 := (i 1).isLt
  have hN : cfg0.N = 50 := N_0
  have ht : (i 0).val / 2000 < cfg0.N := by rw [hN]; omega
  obtain ⟨-, -, -, -, -, -, -, -, -, -, e0, e1⟩ := block_indices ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 512 ≤ (i 1).val
      ∧ (i 1).val < win0_5.index ⟨(i 0).val / 2000, ht⟩ (1 : Fin 2) * 512 + 512
    rw [e1]; omega

/-! ## The result array and the run -/

/-- After the run the result array is the layer of the arguments. -/
theorem result_array (c : Dev nD) : (dats m 0 c).arrAt 5 cfg0.N = target m c :=
  (dats m 0 c).arrAt_eq_of_cover 5 (target m c) (fun t _ => written_block m c t) covered

/-- The kernel's run: it terminates, the result array is the layer of the arguments, the arguments are unchanged. -/
theorem run : θ_run defs (onTc (τ := τ) (main (F := Ideal))) ⟨m, fun _ => 0, ρ⟩ fun r => ∀ c : Dev nD,
      r.2.mem ((c : Thread nD τ).loc main_v23) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (Value.run_blocks m ρ)

end Cert.KernelIdeal.Final

end
-- ==== Proof.lean ====
/-
  A graph layer: every node's new features are the logistic function of a linear map of its own 512 features joined
  with the 128-feature mean of the edges that point at it, plus a bias. The kernel and its reference agree on the
  extended reals.

  Both programs first compute the edge means, by the same operations of the same two arguments (scatter-add the
  edge features into their target nodes, scatter-add ones for the counts, divide the sums by the larger of the count
  and one): as terms the two are one (`means_agree`), and the proof never looks inside them, so it holds for every
  array of edge endpoints, in range or not.

  The reference then joins own features and means into one row of 640, contracts it with row q of the [512, 640]
  weight matrix, adds b q and applies 1 / (1 + exp (−s)) (RefLayer). The kernel works on 50 blocks of 2000 nodes:
  it multiplies the block's own features by the transposed first 512 columns of the weight matrix and the block's
  means by the transposed last 128 columns, each product into a zero accumulator, adds the two, adds the bias row,
  and applies the logistic function (BodyValue); the blocks tile the result (FinalValue); the arrays it starts from
  are the arguments re-laid (StagedArrays). Both results are the one function `layer` of LayerSpec:

      out (r, q) = logistic ( Σ_{k < 512} node (r, k) · W (q, k) + Σ_{k < 128} mean (r, k) · W (q, 512 + k) + b q ).

  The only law used between the two sides is that a sum over 640 columns is the sum over the first 512 plus the sum
  over the last 128, true of any finite sum in a commutative monoid, at infinite terms as well; and the logistic
  function on the extended reals is by definition 1 / (1 + exp (−s)). With exact arithmetic a change of float format
  is the identity. So the precondition (finite inputs) is not used by the value claim.

  The frames of the two kernel programs are the generated frame certificates; the reference's frame is its generated
  run with the result dropped; the idealization rewrote no operation, so there is nothing to preserve.
-/
import proofs.«114779_j8701603742217_1_alg».proof.Defs
import proofs.«114779_j8701603742217_1_alg».proof.Proof.Gen.Kernel
import proofs.«114779_j8701603742217_1_alg».proof.Proof.Gen.Kernel.Skeleton
import proofs.«114779_j8701603742217_1_alg».proof.Proof.Gen.Kernel.Launch
import proofs.«114779_j8701603742217_1_alg».proof.Proof.Gen.Kernel.Points
import proofs.«114779_j8701603742217_1_alg».proof.Proof.Gen.Kernel.Frame
import proofs.«114779_j8701603742217_1_alg».proof.Proof.Gen.KernelIdeal
import proofs.«114779_j8701603742217_1_alg».proof.Proof.Gen.KernelIdeal.Skeleton
import proofs.«114779_j8701603742217_1_alg».proof.Proof.Gen.KernelIdeal.Launch
import proofs.«114779_j8701603742217_1_alg».proof.Proof.Gen.KernelIdeal.Points
import proofs.«114779_j8701603742217_1_alg».proof.Proof.Gen.KernelIdeal.Frame
import proofs.«114779_j8701603742217_1_alg».proof.Proof.Gen.ReferenceIdeal
import proofs.«114779_j8701603742217_1_alg».proof.Proof.Gen.Pre_finite_inputs
import proofs.«114779_j8701603742217_1_alg».proof.Proof.Gen.KernelIdeal.Value
import proofs.«114779_j8701603742217_1_alg».proof.Proof.Gen.ReferenceIdeal.Run
import proofs.«114779_j8701603742217_1_alg».proof.Proof.Gen.ReferenceIdeal.Read
import proofs.«114779_j8701603742217_1_alg».proof.Proof.LayerSpec
import proofs.«114779_j8701603742217_1_alg».proof.Proof.RefLayer
import proofs.«114779_j8701603742217_1_alg».proof.Proof.BodyValue
import proofs.«114779_j8701603742217_1_alg».proof.Proof.StagedArrays
import proofs.«114779_j8701603742217_1_alg».proof.Proof.FinalValue
import Idealize.ShloMosaic.Adequacy
import Idealize.ShloMosaic.Init

noncomputable section

namespace Cert.Proof

open Idealize.ShloMosaic Idealize.ShloMosaic.TcCoe Idealize.SL.Sem

/-- The two programs compute the edge means by the same operations: the kernel's term and the reference's stage are
    one term of the edge features and the edge endpoints. -/
theorem means_agree (x0 : (⟨Cert.KernelIdeal.S600000x128, .f32⟩ : BufTy).Contents (Elt Ideal))
    (x1 : (⟨Cert.KernelIdeal.S2x600000, .i32⟩ : BufTy).Contents (Elt Ideal)) :
    Cert.KernelIdeal.Staged.edgeMeans x0 x1 = Cert.ReferenceIdeal.Read.val_main_v13 (F := Ideal) x0 x1 := rfl

theorem frame_kernel : Cert.frame_Kernel := fun m ρ _ => Cert.Kernel.Gen.frame m ρ

theorem frame_ideal : Cert.frame_KernelIdeal := fun m ρ _ => Cert.KernelIdeal.Gen.frame m ρ

/-- The reference's frame: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends as the layer of the arguments
    (FinalValue) and the reference's as the layer of its arguments and its own edge means (RefLayer): the same
    function of the same arrays once the edge means are seen to be one term. -/
theorem algebraic : Cert.algebraic_KernelIdeal_ReferenceIdeal := by
  intro m ρ m' ρ' _ hagree
  refine ⟨fun c => Cert.KernelIdeal.Final.target m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Layer.result_eq,
    (hagree c).1, (hagree c).2.1, (hagree c).2.2.1, (hagree c).2.2.2.1, (hagree c).2.2.2.2, ← means_agree]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
